-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S256x256 : Shape := ⟨2, ![256, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256x256 .f32) (main_arg6 : FVec F S256 .f32) (main_arg7 : FVec F S256x256 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  main_v33

def fn {F : FTy → Type} [FloatOps F] (main_arg0 : FVec F S100000x128 .f32) (main_arg1 : IVec S2x640000 32) (main_arg2 : FVec F S256x128 .f32) (main_arg3 : FVec F S256 .f32) (main_arg4 : FVec F S256x128 .f32) (main_arg5 : FVec F S256x256 .f32) (main_arg6 : FVec F S256 .f32) (main_arg7 : FVec F S256x256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_v13 main_v16
-- ==== Kernel.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S128x256 : Shape := ⟨2, ![128, 256]⟩
abbrev S640000x128 : Shape := ⟨2, ![640000, 128]⟩
abbrev S1x256 : Shape := ⟨2, ![1, 256]⟩
abbrev S100000x256 : Shape := ⟨2, ![100000, 256]⟩
abbrev S4000x128 : Shape := ⟨2, ![4000, 128]⟩
abbrev S4000x256 : Shape := ⟨2, ![4000, 256]⟩
abbrev S640000x256 : Shape := ⟨2, ![640000, 256]⟩

abbrev nBuf : Space → Nat
  | .hbm => 65
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S128x256, .f32⟩
  | .hbm, ⟨23, _⟩ => ⟨S128x256, .bf16⟩
  | .hbm, ⟨24, _⟩ => ⟨S128x256, .f32⟩
  | .hbm, ⟨25, _⟩ => ⟨S128x256, .bf16⟩
  | .hbm, ⟨26, _⟩ => ⟨S256x256, .f32⟩
  | .hbm, ⟨27, _⟩ => ⟨S256x256, .bf16⟩
  | .hbm, ⟨28, _⟩ => ⟨S256x256, .f32⟩
  | .hbm, ⟨29, _⟩ => ⟨S256x256, .bf16⟩
  | .hbm, ⟨30, _⟩ => ⟨S_, .i32⟩
  | .hbm, ⟨31, _⟩ => ⟨S640000, .i32⟩
  | .hbm, ⟨32, _⟩ => ⟨S640000, .i1⟩
  | .hbm, ⟨33, _⟩ => ⟨S_, .i32⟩
  | .hbm, ⟨34, _⟩ => ⟨S640000, .i32⟩
  | .hbm, ⟨35, _⟩ => ⟨S640000, .i32⟩
  | .hbm, ⟨36, _⟩ => ⟨S640000, .i32⟩
  | .hbm, ⟨37, _⟩ => ⟨S640000x1, .i32⟩
  | .hbm, ⟨38, _⟩ => ⟨S640000x128, .f32⟩
  | .hbm, ⟨39, _⟩ => ⟨S_, .f32⟩
  | .hbm, ⟨40, _⟩ => ⟨S100000x128, .f32⟩
  | .hbm, ⟨41, _⟩ => ⟨S640000x1, .i32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S1x256, .f32⟩
  | .hbm, ⟨46, _⟩ => ⟨S100000x256, .bf16⟩
  | .hbm, ⟨47, _⟩ => ⟨S_, .i32⟩
  | .hbm, ⟨48, _⟩ => ⟨S640000, .i32⟩
  | .hbm, ⟨49, _⟩ => ⟨S640000, .i1⟩
  | .hbm, ⟨50, _⟩ => ⟨S_, .i32⟩
  | .hbm, ⟨51, _⟩ => ⟨S640000, .i32⟩
  | .hbm, ⟨52, _⟩ => ⟨S640000, .i32⟩
  | .hbm, ⟨53, _⟩ => ⟨S640000, .i32⟩
  | .hbm, ⟨54, _⟩ => ⟨S640000x1, .i32⟩
  | .hbm, ⟨55, _⟩ => ⟨S640000x256, .bf16⟩
  | .hbm, ⟨56, _⟩ => ⟨S640000x256, .f32⟩
  | .hbm, ⟨57, _⟩ => ⟨S_, .f32⟩
  | .hbm, ⟨58, _⟩ => ⟨S100000x256, .f32⟩
  | .hbm, ⟨59, _⟩ => ⟨S640000x1, .i32⟩
  | .hbm, ⟨60, _⟩ => ⟨S100000x256, .f32⟩
  | .hbm, ⟨61, _⟩ => ⟨S100000x256, .f32⟩
  | .hbm, ⟨62, _⟩ => ⟨S100000x256, .f32⟩
  | .hbm, ⟨63, _⟩ => ⟨S1x256, .f32⟩
  | .hbm, ⟨64, _⟩ => ⟨S100000x256, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x256, .bf16⟩
  | .local _ .vmem, ⟨5, _⟩ => ⟨S1x256, .f32⟩
  | .local _ .vmem, ⟨6, _⟩ => ⟨S128x256, .bf16⟩
  | .local _ .vmem, ⟨7, _⟩ => ⟨S4000x256, .bf16⟩
  | .local _ .vmem, ⟨8, _⟩ => ⟨S4000x256, .bf16⟩
  | .local _ .vmem, ⟨9, _⟩ => ⟨S4000x256, .f32⟩
  | .local _ .vmem, ⟨10, _⟩ => ⟨S4000x256, .f32⟩
  | .local _ .vmem, ⟨11, _⟩ => ⟨S4000x256, .bf16⟩
  | .local _ .vmem, ⟨12, _⟩ => ⟨S4000x256, .bf16⟩
  | .local _ .vmem, ⟨13, _⟩ => ⟨S256x256, .bf16⟩
  | .local _ .vmem, ⟨14, _⟩ => ⟨S1x256, .f32⟩
  | .local _ .vmem, ⟨15, _⟩ => ⟨S256x256, .bf16⟩
  | .local _ .vmem, ⟨16, _⟩ => ⟨S4000x256, .f32⟩
  | .local _ .vmem, ⟨17, _⟩ => ⟨S4000x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_4 : Ref sig .tc := ⟨.hbm, 47, rfl⟩
abbrev main_v33 : Ref sig .tc := ⟨.hbm, 48, rfl⟩
abbrev main_v34 : Ref sig .tc := ⟨.hbm, 49, rfl⟩
abbrev main_c_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  transposes_S256x128_S128x256_1_0 : S256x128.Transposes [1, 0] S128x256
  bitsLt_bf16_f32 : FTy.bits .bf16 < FTy.bits .f32
  transposes_S256x256_S256x256_1_0 : S256x256.Transposes [1, 0] S256x256
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S256_S1x256 : S256.ShapeCasts S1x256
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S4000x256_S4000x256_0_0 : ∀ a, (![0, 0] : Fin 2 → Nat) a + S4000x256.size a ≤ S4000x256.size a
  h_S4000x256 : 0 < S4000x256.numel
  packedbf16_S4000x256_S4000x256_0_0 : (Rect.unit (s := S4000x256) ![0, 0] S4000x256.size inb_S4000x256_S4000x256_0_0).PackedRows (EltTy.packing .bf16)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  shapeCasts_S4000x256_S4000x256 : S4000x256.ShapeCasts S4000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  scatter_S100000_S640000x1_S640000_n_0_0_1_wf : ScatterDims.WF S100000 S640000x1 S640000 [] [0] [0] 1
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S4000x128_S128x256_S4000x256_1_0_0_1_n_n_wf : DotDims.WF S4000x128 S128x256 S4000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S4000x256_S256x256_S4000x256_1_0_0_1_n_n_wf : DotDims.WF S4000x256 S256x256 S4000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .bf16 = 32 ∨ (Rect.block (s := S128x256) S128x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x256.size a ≤ S100000x256.size a
  hwx0_5 : ∀ i : grid0.Coords, EltTy.bits .bf16 = 32 ∨ (Rect.block (s := S100000x256) S4000x256.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S100000x256.size a
  hwx1_0 : ∀ i : grid1.Coords, EltTy.bits .f32 = 32 ∨ (Rect.block (s := S100000x256) S4000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x256.size a ≤ S100000x256.size a
  hwx1_1 : ∀ i : grid1.Coords, EltTy.bits .bf16 = 32 ∨ (Rect.block (s := S100000x256) S4000x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x256.size a ≤ S100000x256.size a
  hwx1_5 : ∀ i : grid1.Coords, EltTy.bits .f32 = 32 ∨ (Rect.block (s := S100000x256) S4000x256.size (cc1_transform_5 i) (hinb1_5 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf

abbrev win0_0 : Pipeline.Window sig grid0 :=
  Pipeline.Window.ofSpec (Memref.whole main_v30) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v32) S4000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S4000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v47) S4000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S256x128 : Shape := ⟨2, ![256, 128]⟩
abbrev S256 : Shape := ⟨1, ![256]⟩
abbrev S256x256 : Shape := ⟨2, ![256, 256]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S100000 : Shape := ⟨1, ![100000]⟩
abbrev S100000x1 : Shape := ⟨2, ![100000, 1]⟩
abbrev S128x256 : Shape := ⟨2, ![128, 256]⟩
abbrev S100000x256 : Shape := ⟨2, ![100000, 256]⟩
abbrev S1x256 : Shape := ⟨2, ![1, 256]⟩
abbrev S640000x256 : Shape := ⟨2, ![640000, 256]⟩

abbrev nBuf : Space → Nat
  | .hbm => 84
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S256x128, .f32⟩
  | .hbm, ⟨3, _⟩ => ⟨S256, .f32⟩
  | .hbm, ⟨4, _⟩ => ⟨S256x128, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S100000x128, .f32⟩
  | .hbm, ⟨23, _⟩ => ⟨S640000x1, .i32⟩
  | .hbm, ⟨24, _⟩ => ⟨S100000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S128x256, .f32⟩
  | .hbm, ⟨38, _⟩ => ⟨S100000x256, .f32⟩
  | .hbm, ⟨39, _⟩ => ⟨S1x256, .f32⟩
  | .hbm, ⟨40, _⟩ => ⟨S100000x256, .f32⟩
  | .hbm, ⟨41, _⟩ => ⟨S100000x256, .f32⟩
  | .hbm, ⟨42, _⟩ => ⟨S128x256, .f32⟩
  | .hbm, ⟨43, _⟩ => ⟨S100000x256, .f32⟩
  | .hbm, ⟨44, _⟩ => ⟨S100000x256, .f32⟩
  | .hbm, ⟨45, _⟩ => ⟨S_, .f32⟩
  | .hbm, ⟨46, _⟩ => ⟨S100000x256, .f32⟩
  | .hbm, ⟨47, _⟩ => ⟨S100000x256, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x256, .f32⟩
  | .hbm, ⟨57, _⟩ => ⟨S_, .f32⟩
  | .hbm, ⟨58, _⟩ => ⟨S100000x256, .f32⟩
  | .hbm, ⟨59, _⟩ => ⟨S640000x1, .i32⟩
  | .hbm, ⟨60, _⟩ => ⟨S100000x256, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S100000, .f32⟩
  | .hbm, ⟨65, _⟩ => ⟨S640000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x256, .f32⟩
  | .hbm, ⟨72, _⟩ => ⟨S100000x256, .f32⟩
  | .hbm, ⟨73, _⟩ => ⟨S256x256, .f32⟩
  | .hbm, ⟨74, _⟩ => ⟨S100000x256, .f32⟩
  | .hbm, ⟨75, _⟩ => ⟨S1x256, .f32⟩
  | .hbm, ⟨76, _⟩ => ⟨S100000x256, .f32⟩
  | .hbm, ⟨77, _⟩ => ⟨S100000x256, .f32⟩
  | .hbm, ⟨78, _⟩ => ⟨S256x256, .f32⟩
  | .hbm, ⟨79, _⟩ => ⟨S100000x256, .f32⟩
  | .hbm, ⟨80, _⟩ => ⟨S100000x256, .f32⟩
  | .hbm, ⟨81, _⟩ => ⟨S_, .f32⟩
  | .hbm, ⟨82, _⟩ => ⟨S100000x256, .f32⟩
  | .hbm, ⟨83, _⟩ => ⟨S100000x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_call1_cst : Ref sig .tc := ⟨.hbm, 81, rfl⟩
abbrev main_call1_v0 : Ref sig .tc := ⟨.hbm, 82, rfl⟩
abbrev main_v59 : Ref sig .tc := ⟨.hbm, 83, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S256x128_S128x256_1_0 : S256x128.Transposes [1, 0] S128x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  transposes_S256x256_S256x256_1_0 : S256x256.Transposes [1, 0] S256x256
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  scatter_S100000_S640000x1_S640000_n_0_0_1_wf : ScatterDims.WF S100000 S640000x1 S640000 [] [0] [0] 1
  dot_S100000x128_S128x256_S100000x256_1_0_0_1_n_n_wf : DotDims.WF S100000x128 S128x256 S100000x256 [1] [0] [0] [1] [] []
  gather_S100000x256_S640000x1_S640000x256_1_0_n_n_0_1_1256_wf : GatherDims.WF S100000x256 S640000x1 S640000x256 [1] [0] [] [0] [] 1 ![1, 256]
  scatter_S100000x256_S640000x1_S640000x256_1_0_0_1_wf : ScatterDims.WF S100000x256 S640000x1 S640000x256 [1] [0] [0] 1
  dot_S100000x256_S256x256_S100000x256_1_0_0_1_n_n_wf : DotDims.WF S100000x256 S256x256 S100000x256 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S640000x1_S640000x256_1_0_n_n_0_1_1256 : GatherDims S100000x256 S640000x1 S640000x256 where
  offsetDims := [1]
  collapsedSliceDims := [0]
  operandBatchingDims := []
  startIndicesBatchingDims := []
  startIndexMap := [0]
  indexVectorDim := 1
  sliceSizes := ![1, 256]
  wf := gather_S100000x256_S640000x1_S640000x256_1_0_n_n_0_1_1256_wf
def scatter_S100000x256_S640000x1_S640000x256_1_0_0_1 : ScatterDims S100000x256 S640000x1 S640000x256 where
  updateWindowDims := [1]
  insertedWindowDims := [0]
  scatterDimsToOperandDims := [0]
  indexVectorDim := 1
  wf := scatter_S100000x256_S640000x1_S640000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.KernelRun.lean ====
/-
  The idealized kernel's run with its result named.

  The program is two kernel launches among stretches of host operations. Its run is followed boundary by boundary: the
  buffer contents after the first stretch, after the first launch (the launch's output array at what its write-backs
  leave, every other buffer as entered), after the second stretch, and after the second launch. Every weakly fair
  execution terminates with every unscoped buffer at that last boundary's contents; read at the result buffer, that is
  the second launch's output array after all its write-backs, and read at an argument it is the argument as launched.
-/
import proofs.«117430_j45853070852695_2_alg».proof.Proof.Gen.KernelIdeal.Frame

set_option maxRecDepth 16384

noncomputable section

namespace Cert.KernelIdeal.RunOut

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second launch's output window's array. -/
theorem arrRef_out : Pipeline.arrRef spec1 (5 : Fin cfg1.W) = main_v47 := rfl

set_option backward.isDefEq.respectTransparency.types false in
/-- Every weakly fair execution terminates, nothing faulting, with the result buffer at the last boundary's contents and
    the arguments as launched. -/
theorem run_boundary : θ_run defs (onTc (τ := τ) (main (F := F))) ⟨m, fun _ => 0, ρ⟩ (fun r => ∀ c : Dev nD,
      r.2.mem ((c.tc : Thread nD τ).loc main_v47) = W4 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v47 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The same with the result buffer at the second launch's output array after all its write-backs. -/
theorem run_out : θ_run defs (onTc (τ := τ) (main (F := F))) ⟨m, fun _ => 0, ρ⟩ (fun r => ∀ c : Dev nD,
      r.2.mem ((c.tc : Thread nD τ).loc main_v47) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (W4_arr m ρ c 5), (h c).2⟩) (run_boundary m ρ)

end Cert.KernelIdeal.RunOut

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.LibDotColsHost.lean ====
/-
  The host's plain matrix product read at one entry.

  For `x : M × K` and `y : K × N` the host's `dot_general` with dimension numbers "contract axis 1 of the left with axis 0 of
  the right, keep axis 0 of the left and axis 1 of the right" has no accumulator: over the extended reals its entry `(p, q)` is
  `∑ k, x[p, k] · y[k, q]`. The operand indices are those of the plain product (the companion module identifies them with the
  coordinate pairs `(p, k)` and `(k, q)`); only the operation differs.
-/
import proofs.«117430_j45853070852695_2_alg».proof.Proof.LibDotCols

noncomputable section

open scoped BigOperators

namespace Cert.Lib.DotColsHost

open Idealize.ShloMosaic Idealize.ShloMosaic.ValueIdx Cert.Lib.DotCols

variable {M K N : Nat}

/-- THE HOST'S PLAIN PRODUCT AT AN ENTRY. Over the extended reals, a `dot_general` with these dimension numbers (any record `D`
    that spells them: `hD`), whatever its precision and schedule, holds at `(p, q)` the sum `∑ k, x[p, k] · y[k, q]`. -/
theorem dotGeneral_cols_apply {φ₁ φ₂ : FTy} (D : DotDims ⟨2, ![M, K]⟩ ⟨2, ![K, N]⟩ ⟨2, ![M, N]⟩) (hD : D = DotDims.plain M K N)
    (prec : Option ContractPrecision) (sched : HostSchedule) (x : FVec Ideal ⟨2, ![M, K]⟩ φ₁) (y : FVec Ideal ⟨2, ![K, N]⟩ φ₂)
    (p : Fin M) (q : Fin N) :
    FloatOps.dotGeneral D prec sched x y (ix2 p q) = ∑ k : Fin K, x (ix2 p k) * y (ix2 k q) := by
  subst hD
  rw [Ideal.dotGeneral_apply, ← Equiv.sum_comp (contrEquiv1 (DotDims.plain M K N) K rfl rfl).symm]
  refine Finset.sum_congr rfl fun k _ => ?_
  rw [lhsIdx_cols, rhsIdx_cols]

end Cert.Lib.DotColsHost

end
-- ==== Proof.LibSageLayer.lean ====
/-
  One layer of the network, entry by entry, over the extended reals.

  A layer takes the normalised neighbour sums `A` and the nodes' own features `X` (both `n × K`), two weight matrices
  `WL`, `WR` (both `K × H`, stored input-major) and a bias row `B` (`1 × H`), and returns the `n × H` array whose entry
  `(p, q)` is `max (∑ k, A[p,k]·WL[k,q] + ∑ k, X[p,k]·WR[k,q] + B[0,q]) 0`.

  Two spellings of it are identified with this one function. The first adds the two matrix products (each accumulated
  into the zero array), then a broadcast bias row, and takes the maximum with a splat zero: an entry reads only row `p` of
  `A` and `X`, so the same expression evaluated on a block of rows is that block of the layer. The second adds the bias
  (a vector broadcast along the rows) to the first product BEFORE the second product is added: addition on the extended
  reals is commutative and associative with no finiteness asked, so the two orders agree.
-/
import Idealize.ShloMosaic.PureOps.Ideal.Laws
import Idealize.ShloMosaic.Lib.ValueIdx
import Idealize.ShloMosaic.Lib.ValueLayout
import Idealize.ShloMosaic.Lib.Pipeline.Value
import proofs.«117430_j45853070852695_2_alg».proof.Proof.LibDotCols
import proofs.«117430_j45853070852695_2_alg».proof.Proof.LibDotColsHost

noncomputable section

open scoped BigOperators

namespace Cert.Sage

open Idealize.ShloMosaic Idealize.ShloMosaic.ValueIdx

variable {n K H : Nat}

/-- Entry `(p, q)` of a layer. -/
def layerAt (A X : (⟨2, ![n, K]⟩ : Shape).Idx → EReal) (WL WR : (⟨2, ![K, H]⟩ : Shape).Idx → EReal)
    (B : (⟨2, ![1, H]⟩ : Shape).Idx → EReal) (p : Fin n) (q : Fin H) : EReal :=
  max ((∑ k : Fin K, A (ix2 p k) * WL (ix2 k q) + ∑ k : Fin K, X (ix2 p k) * WR (ix2 k q)) + B (ix2 (0 : Fin 1) q)) 0

/-- The layer as an array. -/
def layer (A X : (⟨2, ![n, K]⟩ : Shape).Idx → EReal) (WL WR : (⟨2, ![K, H]⟩ : Shape).Idx → EReal)
    (B : (⟨2, ![1, H]⟩ : Shape).Idx → EReal) : (⟨2, ![n, H]⟩ : Shape).Idx → EReal :=
  fun i => layerAt A X WL WR B (i 0) (i 1)

theorem layer_ix2 (A X : (⟨2, ![n, K]⟩ : Shape).Idx → EReal) (WL WR : (⟨2, ![K, H]⟩ : Shape).Idx → EReal)
    (B : (⟨2, ![1, H]⟩ : Shape).Idx → EReal) (p : Fin n) (q : Fin H) :
    layer A X WL WR B (ix2 p q) = layerAt A X WL WR B p q := rfl

/-- An entry of the layer reads only row `p` of `A` and of `X`, column `q` of the weights and entry `q` of the bias row:
    two layers whose operands agree there agree at the entry. -/
theorem layerAt_congr {n' : Nat} (A X : (⟨2, ![n, K]⟩ : Shape).Idx → EReal) (A' X' : (⟨2, ![n', K]⟩ : Shape).Idx → EReal)
    (WL WR WL' WR' : (⟨2, ![K, H]⟩ : Shape).Idx → EReal) (B B' : (⟨2, ![1, H]⟩ : Shape).Idx → EReal)
    (p : Fin n) (p' : Fin n') (q q' : Fin H)
    (hA : ∀ k : Fin K, A (ix2 p k) = A' (ix2 p' k)) (hX : ∀ k : Fin K, X (ix2 p k) = X' (ix2 p' k))
    (hWL : ∀ k : Fin K, WL (ix2 k q) = WL' (ix2 k q')) (hWR : ∀ k : Fin K, WR (ix2 k q) = WR' (ix2 k q'))
    (hB : B (ix2 (0 : Fin 1) q) = B' (ix2 (0 : Fin 1) q')) :
    layerAt A X WL WR B p q = layerAt A' X' WL' WR' B' p' q' := by
  unfold layerAt
  simp only [hA, hX, hWL, hWR, hB]

/-- THE FIRST SPELLING, at an entry: two products into the zero accumulator, added; the bias row broadcast over the rows,
    added; the maximum with the float zero. -/
theorem products_then_bias {φa φx φl φr : FTy} (D : DotDims ⟨2, ![n, K]⟩ ⟨2, ![K, H]⟩ ⟨2, ![n, H]⟩) (hD : D = DotDims.plain n K H)
    (a : FVec Ideal ⟨2, ![n, K]⟩ φa) (x : FVec Ideal ⟨2, ![n, K]⟩ φx) (wl : FVec Ideal ⟨2, ![K, H]⟩ φl) (wr : FVec Ideal ⟨2, ![K, H]⟩ φr)
    (b : FVec Ideal ⟨2, ![1, H]⟩ .f32) (hb : (⟨2, ![1, H]⟩ : Shape).Broadcasts ⟨2, ![n, H]⟩) (p : Fin n) (q : Fin H) :
    max ((FloatOps.matmul D none a wl (constant ⟨2, ![n, H]⟩ .f32 0x00000000#32) (ix2 p q)
          + FloatOps.matmul D none x wr (constant ⟨2, ![n, H]⟩ .f32 0x00000000#32) (ix2 p q))
        + broadcastTo ⟨2, ![n, H]⟩ b hb (ix2 p q)) (Ideal.ofBits .f32 0x00000000#32)
      = layerAt a x wl wr b p q := by
  rw [Cert.Lib.DotCols.matmul_cols_apply D hD, Cert.Lib.DotCols.matmul_cols_apply D hD, broadcastTo_1b_ab_apply,
    Ideal.ofBits_zero_f32]
  rfl

/-- A bias vector broadcast to a row and then over the rows reads, at `(p, q)`, its entry `q`. -/
theorem bias_rows_apply (b : (⟨1, ![H]⟩ : Shape).Idx → EReal)
    (h1 : (⟨1, ![H]⟩ : Shape).BroadcastsInDim ⟨2, ![1, H]⟩ (![1] : Fin 1 → Fin (⟨2, ![1, H]⟩ : Shape).rank))
    (h2 : (⟨2, ![1, H]⟩ : Shape).BroadcastsInDim ⟨2, ![n, H]⟩ (![0, 1] : Fin 2 → Fin (⟨2, ![n, H]⟩ : Shape).rank))
    (p : Fin n) (q : Fin H) :
    broadcastInDim ⟨2, ![n, H]⟩ ![0, 1] h2 (broadcastInDim ⟨2, ![1, H]⟩ ![1] h1 b) (ix2 p q) = b (ix1 q) := by
  rw [broadcastInDim_apply ![0, 1] h2 _ (ix2 p q) (ix2 (0 : Fin 1) q) (fun a => by
    match a with
    | ⟨0, _⟩ => rfl
    | ⟨1, _⟩ =>
      show q.val = if H = 1 then 0 else q.val
      split
      · have := q.isLt; omega
      · rfl)]
  exact broadcastInDim_apply ![1] h1 b (ix2 (0 : Fin 1) q) (ix1 q) (fun a => by
    match a with
    | ⟨0, _⟩ =>
      show q.val = if H = 1 then 0 else q.val
      split
      · have := q.isLt; omega
      · rfl)

/-- THE SECOND SPELLING: the host's two products with the bias added between them, and the maximum with a broadcast
    zero, is the layer at the bias cast to a row. -/
theorem bias_between_products {φa φx φl φr : FTy} (D : DotDims ⟨2, ![n, K]⟩ ⟨2, ![K, H]⟩ ⟨2, ![n, H]⟩) (hD : D = DotDims.plain n K H)
    (A : FVec Ideal ⟨2, ![n, K]⟩ φa) (X : FVec Ideal ⟨2, ![n, K]⟩ φx) (WL : FVec Ideal ⟨2, ![K, H]⟩ φl) (WR : FVec Ideal ⟨2, ![K, H]⟩ φr)
    (b : FVec Ideal ⟨1, ![H]⟩ .f32)
    (h1 : (⟨1, ![H]⟩ : Shape).BroadcastsInDim ⟨2, ![1, H]⟩ (![1] : Fin 1 → Fin (⟨2, ![1, H]⟩ : Shape).rank))
    (h2 : (⟨2, ![1, H]⟩ : Shape).BroadcastsInDim ⟨2, ![n, H]⟩ (![0, 1] : Fin 2 → Fin (⟨2, ![n, H]⟩ : Shape).rank))
    (h0 : (⟨0, ![]⟩ : Shape).BroadcastsInDim ⟨2, ![n, H]⟩ (![] : Fin 0 → Fin (⟨2, ![n, H]⟩ : Shape).rank))
    (hsc : (⟨1, ![H]⟩ : Shape).ShapeCasts ⟨2, ![1, H]⟩) :
    (maximumf (addf (addf (Host.dotGeneral D none A WL) (broadcastInDim ⟨2, ![n, H]⟩ ![0, 1] h2 (broadcastInDim ⟨2, ![1, H]⟩ ![1] h1 b)))
        (Host.dotGeneral D none X WR)) (broadcastInDim ⟨2, ![n, H]⟩ ![] h0 (constant (F := Ideal) ⟨0, ![]⟩ .f32 0x00000000#32))
      : FVec Ideal ⟨2, ![n, H]⟩ .f32)
      = layer A X WL WR (shapeCast ⟨2, ![1, H]⟩ b hsc) := by
  funext i
  obtain ⟨p, q, rfl⟩ : ∃ (p : Fin n) (q : Fin H), i = ix2 p q := ⟨i 0, i 1, eq_ix2 i⟩
  rw [layer_ix2]
  have e1 : Host.dotGeneral D none A WL (ix2 p q) = ∑ k : Fin K, A (ix2 p k) * WL (ix2 k q) :=
    Cert.Lib.DotColsHost.dotGeneral_cols_apply D hD none .single A WL p q
  have e2 : Host.dotGeneral D none X WR (ix2 p q) = ∑ k : Fin K, X (ix2 p k) * WR (ix2 k q) :=
    Cert.Lib.DotColsHost.dotGeneral_cols_apply D hD none .single X WR p q
  have e3 := bias_rows_apply (n := n) b h1 h2 p q
  have e4 : broadcastInDim ⟨2, ![n, H]⟩ ![] h0 (constant (F := Ideal) ⟨0, ![]⟩ .f32 0x00000000#32) (ix2 p q) = (0 : EReal) :=
    (broadcastInDim_apply ![] h0 _ (ix2 p q) ix0 (fun a => a.elim0)).trans Ideal.ofBits_zero_f32
  have e5 : shapeCast ⟨2, ![1, H]⟩ b hsc (ix2 (0 : Fin 1) q) = b (ix1 q) := shapeCast_a_1a_apply b hsc 0 q
  show max ((Host.dotGeneral D none A WL (ix2 p q) + _) + Host.dotGeneral D none X WR (ix2 p q)) _ = _
  rw [e1, e2, e3, e4]
  unfold layerAt
  rw [e5, add_right_comm]

end Cert.Sage

end
-- ==== Proof.Layer1Value.lean ====
/-
  The first launch's output array.

  The launch walks 25 blocks of 4000 rows. At block `t` the body reads rows `4000·t … 4000·t + 3999` of the normalised
  neighbour sums and of the features, the two weight matrices and the bias row whole, and writes the same rows of the
  output: its stored value is the layer of its loaded blocks, and an entry of a layer reads one row of each row operand, so
  what block `t` writes back is block `t` of the layer of the WHOLE arrays. The blocks tile the output (row `r` is in block
  `r / 4000`), so after all write-backs the array is that layer — whatever the buffers held when the launch was entered.
-/
import proofs.«117430_j45853070852695_2_alg».proof.Proof.Gen.KernelIdeal.Frame
import proofs.«117430_j45853070852695_2_alg».proof.Proof.LibSageLayer

set_option maxRecDepth 16384

noncomputable section

namespace Cert.KernelIdeal.Layer1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of its loaded blocks (a change of float format is the identity on the
    extended reals, and a cast to the same shape moves nothing). -/
theorem stored_eq (v0 v3 : Vec Ideal S4000x128 .f32) (v5 v8 : Vec Ideal S128x256 .bf16) (v12 : Vec Ideal S1x256 .f32) :
    k0_pay1 (F := Ideal) v0 v3 v5 v8 v12 = Cert.Sage.layer (n := 4000) (K := 128) (H := 256) v0 v3 v5 v8 v12 := by
  funext j
  obtain ⟨p, q, rfl⟩ : ∃ (p : Fin 4000) (q : Fin 256), j = ix2 p q := ⟨j 0, j 1, eq_ix2 j⟩
  rw [Cert.Sage.layer_ix2]
  unfold k0_pay1
  simp only [shapeCast_self]
  exact Cert.Sage.products_then_bias (n := 4000) (K := 128) (H := 256) dot_S4000x128_S128x256_S4000x256_1_0_0_1_n_n rfl
    (truncf .bf16 v0 bitsLt_bf16_f32) (truncf .bf16 v3 bitsLt_bf16_f32) v5 v8 v12 broadcasts_S1x256_S4000x256 p q

/-- The printed index maps over the grid: the row windows and the output move with the point, the weights and the bias
    stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The layer of the arrays as the launch finds them. -/
def G (c : Dev nD) : S100000x256.Idx → EReal :=
  Cert.Sage.layer (n := 100000) (K := 128) (H := 256) (V c main_v30) (V c main_arg0) (V c main_v12) (V c main_v14) (V c main_v31)

/-- WHAT POINT `t` WRITES BACK is block `t` of that layer. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S4000x128) hz, View.ld_unit_zero (S := S128x256) hz, View.ld_unit_zero (S := S1x256) hz]
  rw [stored_eq]
  obtain ⟨e00, e01, e10, e11, e20, e21, e30, e31, e40, e41, e50, e51⟩ := idx_facts t
  funext j
  obtain ⟨p, q, rfl⟩ : ∃ (p : Fin 4000) (q : Fin 256), j = ix2 p q := ⟨j 0, j 1, eq_ix2 j⟩
  show Cert.Sage.layerAt (n := 4000) (K := 128) (H := 256) (iblk0 V c 0 t) (iblk0 V c 1 t) (iblk0 V c 2 t) (iblk0 V c 4 t) (iblk0 V c 3 t) p q
     = Cert.Sage.layerAt (n := 100000) (K := 128) (H := 256) (V c main_v30) (V c main_arg0) (V c main_v12) (V c main_v14) (V c main_v31)
         ((((cfg0.win 5).blk t).view.emb (ix2 p q)) 0) ((((cfg0.win 5).blk t).view.emb (ix2 p q)) 1)
  refine Cert.Sage.layerAt_congr _ _ _ _ _ _ _ _ _ _ _ _ _ _ (fun k => ?_) (fun k => ?_) (fun k => ?_) (fun k => ?_) ?_
  · show V c main_v30 (((cfg0.win 0).blk t).view.emb (ix2 p k)) = V c main_v30 (ix2 _ k)
    refine congrArg _ (funext fun a => Fin.ext ?_)
    match a with
    | ⟨0, _⟩ => show win0_0.index t (0 : Fin 2) * 4000 + 1 * p.val = win0_5.index t (0 : Fin 2) * 4000 + 1 * p.val; omega
    | ⟨1, _⟩ => show win0_0.index t (1 : Fin 2) * 128 + 1 * k.val = k.val; omega
  · show V c main_arg0 (((cfg0.win 1).blk t).view.emb (ix2 p k)) = V c main_arg0 (ix2 _ k)
    refine congrArg _ (funext fun a => Fin.ext ?_)
    match a with
    | ⟨0, _⟩ => show win0_1.index t (0 : Fin 2) * 4000 + 1 * p.val = win0_5.index t (0 : Fin 2) * 4000 + 1 * p.val; omega
    | ⟨1, _⟩ => show win0_1.index t (1 : Fin 2) * 128 + 1 * k.val = k.val; omega
  · show V c main_v12 (((cfg0.win 2).blk t).view.emb (ix2 k q)) = V c main_v12 (ix2 k _)
    refine congrArg _ (funext fun a => Fin.ext ?_)
    match a with
    | ⟨0, _⟩ => show win0_2.index t (0 : Fin 2) * 128 + 1 * k.val = k.val; omega
    | ⟨1, _⟩ => show win0_2.index t (1 : Fin 2) * 256 + 1 * q.val = win0_5.index t (1 : Fin 2) * 256 + 1 * q.val; omega
  · show V c main_v14 (((cfg0.win 4).blk t).view.emb (ix2 k q)) = V c main_v14 (ix2 k _)
    refine congrArg _ (funext fun a => Fin.ext ?_)
    match a with
    | ⟨0, _⟩ => show win0_4.index t (0 : Fin 2) * 128 + 1 * k.val = k.val; omega
    | ⟨1, _⟩ => show win0_4.index t (1 : Fin 2) * 256 + 1 * q.val = win0_5.index t (1 : Fin 2) * 256 + 1 * q.val; omega
  · show V c main_v31 (((cfg0.win 3).blk t).view.emb (ix2 (0 : Fin 1) q)) = V c main_v31 (ix2 (0 : Fin 1) _)
    refine congrArg _ (funext fun a => Fin.ext ?_)
    match a with
    | ⟨0, _⟩ => show win0_3.index t (0 : Fin 2) * 1 + 1 * 0 = 0; omega
    | ⟨1, _⟩ => show win0_3.index t (1 : Fin 2) * 256 + 1 * q.val = win0_5.index t (1 : Fin 2) * 256 + 1 * q.val; omega

/-- An index of the output array is in point `t`'s block iff each coordinate is in the block's range on its axis. -/
theorem mem_blk (t : Fin cfg0.N) (i : S100000x256.Idx) :
    i ∈ ((cfg0.win 5).blk t).view.set ↔ ∀ a : Fin 2, win0_5.index t a * S4000x256.size a ≤ (i a).val ∧ (i a).val < win0_5.index t a * S4000x256.size a + S4000x256.size a := by
  show i ∈ ((View.whole main_v32).slice (win0_5.rect t)).set ↔ _
  rw [View.set_slice_whole, Rect.mem_set_unit]
  exact Iff.rfl

/-- Every row of the output is in the block of the point `row / 4000`. -/
theorem cover (i : S100000x256.Idx) : ∃ t : Fin cfg0.N, (cfg0.win 5).flush t = true ∧ i ∈ ((cfg0.win 5).blk t).view.set := by
  have hN : cfg0.N = 25 := N_0
  have hi0 : (i 0).val < 100000 := (i 0).isLt
  have hi1 : (i 1).val < 256 := (i 1).isLt
  let t : Fin cfg0.N := ⟨(i 0).val / 4000, by omega⟩
  obtain ⟨-, -, -, -, -, -, -, -, -, -, e50, e51⟩ := idx_facts t
  have ht : (t : Nat) = (i 0).val / 4000 := rfl
  refine ⟨t, flush0_5 t, ?_⟩
  rw [mem_blk]
  intro a
  match a with
  | ⟨0, _⟩ => show win0_5.index t (0 : Fin 2) * 4000 ≤ (i 0).val ∧ (i 0).val < win0_5.index t (0 : Fin 2) * 4000 + 4000; omega
  | ⟨1, _⟩ => show win0_5.index t (1 : Fin 2) * 256 ≤ (i 1).val ∧ (i 1).val < win0_5.index t (1 : Fin 2) * 256 + 256; omega

/-- THE OUTPUT ARRAY after all write-backs is the layer of the arrays as the launch found them. -/
theorem final (c : Dev nD) : (dat0 V c).arrAt 5 cfg0.N = G V c :=
  (dat0 V c).arrAt_eq_of_cover 5 (G V c) (fun t _ => flushed_eq V c t) cover

end Cert.KernelIdeal.Layer1

end
-- ==== Proof.Layer2Value.lean ====
/-
  The second launch's output array.

  The same walk as the first launch's, over 25 blocks of 4000 rows, with 256 input features: at block `t` the body reads rows
  `4000·t … 4000·t + 3999` of the normalised neighbour sums of the hidden features and of the hidden features themselves, the two
  square weight matrices and the bias row whole, and writes the same rows of the result. Its stored value is the layer of its loaded
  blocks, an entry of a layer reads one row of each row operand, and the blocks tile the result: after all write-backs the result is
  the layer of the whole arrays as the launch found them.
-/
import proofs.«117430_j45853070852695_2_alg».proof.Proof.Gen.KernelIdeal.Frame
import proofs.«117430_j45853070852695_2_alg».proof.Proof.LibSageLayer

set_option maxRecDepth 16384

noncomputable section

namespace Cert.KernelIdeal.Layer2

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value is the layer of its loaded blocks (a change of float format is the identity on the
    extended reals, and a cast to the same shape moves nothing). -/
theorem stored_eq (v0 : Vec Ideal S4000x256 .f32) (v3 : Vec Ideal S4000x256 .bf16) (v5 v8 : Vec Ideal S256x256 .bf16) (v12 : Vec Ideal S1x256 .f32) :
    k1_pay1 (F := Ideal) v0 v3 v5 v8 v12 = Cert.Sage.layer (n := 4000) (K := 256) (H := 256) v0 v3 v5 v8 v12 := by
  funext j
  obtain ⟨p, q, rfl⟩ : ∃ (p : Fin 4000) (q : Fin 256), j = ix2 p q := ⟨j 0, j 1, eq_ix2 j⟩
  rw [Cert.Sage.layer_ix2]
  unfold k1_pay1
  simp only [shapeCast_self]
  exact Cert.Sage.products_then_bias (n := 4000) (K := 256) (H := 256) dot_S4000x256_S256x256_S4000x256_1_0_0_1_n_n rfl
    (truncf .bf16 v0 bitsLt_bf16_f32) v3 v5 v8 v12 broadcasts_S1x256_S4000x256 p q

/-- The printed index maps over the grid: the row windows and the output move with the point, the weights and the bias
    stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The layer of the arrays as the launch finds them. -/
def G (c : Dev nD) : S100000x256.Idx → EReal :=
  Cert.Sage.layer (n := 100000) (K := 256) (H := 256) (V c main_v45) (V c main_v32) (V c main_v16) (V c main_v18) (V c main_v46)

/-- WHAT POINT `t` WRITES BACK is block `t` of that layer. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S4000x256) hz, View.ld_unit_zero (S := S256x256) hz, View.ld_unit_zero (S := S1x256) hz]
  rw [stored_eq]
  obtain ⟨e00, e01, e10, e11, e20, e21, e30, e31, e40, e41, e50, e51⟩ := idx_facts t
  funext j
  obtain ⟨p, q, rfl⟩ : ∃ (p : Fin 4000) (q : Fin 256), j = ix2 p q := ⟨j 0, j 1, eq_ix2 j⟩
  show Cert.Sage.layerAt (n := 4000) (K := 256) (H := 256) (iblk1 V c 0 t) (iblk1 V c 1 t) (iblk1 V c 2 t) (iblk1 V c 4 t) (iblk1 V c 3 t) p q
     = Cert.Sage.layerAt (n := 100000) (K := 256) (H := 256) (V c main_v45) (V c main_v32) (V c main_v16) (V c main_v18) (V c main_v46)
         ((((cfg1.win 5).blk t).view.emb (ix2 p q)) 0) ((((cfg1.win 5).blk t).view.emb (ix2 p q)) 1)
  refine Cert.Sage.layerAt_congr _ _ _ _ _ _ _ _ _ _ _ _ _ _ (fun k => ?_) (fun k => ?_) (fun k => ?_) (fun k => ?_) ?_
  · show V c main_v45 (((cfg1.win 0).blk t).view.emb (ix2 p k)) = V c main_v45 (ix2 _ k)
    refine congrArg _ (funext fun a => Fin.ext ?_)
    match a with
    | ⟨0, _⟩ => show win1_0.index t (0 : Fin 2) * 4000 + 1 * p.val = win1_5.index t (0 : Fin 2) * 4000 + 1 * p.val; omega
    | ⟨1, _⟩ => show win1_0.index t (1 : Fin 2) * 256 + 1 * k.val = k.val; omega
  · show V c main_v32 (((cfg1.win 1).blk t).view.emb (ix2 p k)) = V c main_v32 (ix2 _ k)
    refine congrArg _ (funext fun a => Fin.ext ?_)
    match a with
    | ⟨0, _⟩ => show win1_1.index t (0 : Fin 2) * 4000 + 1 * p.val = win1_5.index t (0 : Fin 2) * 4000 + 1 * p.val; omega
    | ⟨1, _⟩ => show win1_1.index t (1 : Fin 2) * 256 + 1 * k.val = k.val; omega
  · show V c main_v16 (((cfg1.win 2).blk t).view.emb (ix2 k q)) = V c main_v16 (ix2 k _)
    refine congrArg _ (funext fun a => Fin.ext ?_)
    match a with
    | ⟨0, _⟩ => show win1_2.index t (0 : Fin 2) * 256 + 1 * k.val = k.val; omega
    | ⟨1, _⟩ => show win1_2.index t (1 : Fin 2) * 256 + 1 * q.val = win1_5.index t (1 : Fin 2) * 256 + 1 * q.val; omega
  · show V c main_v18 (((cfg1.win 4).blk t).view.emb (ix2 k q)) = V c main_v18 (ix2 k _)
    refine congrArg _ (funext fun a => Fin.ext ?_)
    match a with
    | ⟨0, _⟩ => show win1_4.index t (0 : Fin 2) * 256 + 1 * k.val = k.val; omega
    | ⟨1, _⟩ => show win1_4.index t (1 : Fin 2) * 256 + 1 * q.val = win1_5.index t (1 : Fin 2) * 256 + 1 * q.val; omega
  · show V c main_v46 (((cfg1.win 3).blk t).view.emb (ix2 (0 : Fin 1) q)) = V c main_v46 (ix2 (0 : Fin 1) _)
    refine congrArg _ (funext fun a => Fin.ext ?_)
    match a with
    | ⟨0, _⟩ => show win1_3.index t (0 : Fin 2) * 1 + 1 * 0 = 0; omega
    | ⟨1, _⟩ => show win1_3.index t (1 : Fin 2) * 256 + 1 * q.val = win1_5.index t (1 : Fin 2) * 256 + 1 * q.val; omega

/-- An index of the result is in point `t`'s block iff each coordinate is in the block's range on its axis. -/
theorem mem_blk (t : Fin cfg1.N) (i : S100000x256.Idx) :
    i ∈ ((cfg1.win 5).blk t).view.set ↔ ∀ a : Fin 2, win1_5.index t a * S4000x256.size a ≤ (i a).val ∧ (i a).val < win1_5.index t a * S4000x256.size a + S4000x256.size a := by
  show i ∈ ((View.whole main_v47).slice (win1_5.rect t)).set ↔ _
  rw [View.set_slice_whole, Rect.mem_set_unit]
  exact Iff.rfl

/-- Every row of the result is in the block of the point `row / 4000`. -/
theorem cover (i : S100000x256.Idx) : ∃ t : Fin cfg1.N, (cfg1.win 5).flush t = true ∧ i ∈ ((cfg1.win 5).blk t).view.set := by
  have hN : cfg1.N = 25 := N_1
  have hi0 : (i 0).val < 100000 := (i 0).isLt
  have hi1 : (i 1).val < 256 := (i 1).isLt
  let t : Fin cfg1.N := ⟨(i 0).val / 4000, by omega⟩
  obtain ⟨-, -, -, -, -, -, -, -, -, -, e50, e51⟩ := idx_facts t
  have ht : (t : Nat) = (i 0).val / 4000 := rfl
  refine ⟨t, flush1_5 t, ?_⟩
  rw [mem_blk]
  intro a
  match a with
  | ⟨0, _⟩ => show win1_5.index t (0 : Fin 2) * 4000 ≤ (i 0).val ∧ (i 0).val < win1_5.index t (0 : Fin 2) * 4000 + 4000; omega
  | ⟨1, _⟩ => show win1_5.index t (1 : Fin 2) * 256 ≤ (i 1).val ∧ (i 1).val < win1_5.index t (1 : Fin 2) * 256 + 256; omega

/-- THE RESULT after all write-backs is the layer of the arrays as the launch found them. -/
theorem final (c : Dev nD) : (dat1 V c).arrAt 5 cfg1.N = G V c :=
  (dat1 V c).arrAt_eq_of_cover 5 (G V c) (fun t _ => flushed_eq V c t) cover

end Cert.KernelIdeal.Layer2

end
-- ==== Proof.SageNet.lean ====
/-
  The network as one function of the argument arrays, over the extended reals.

  Every edge `e` has a source node and a destination node (rows 0 and 1 of the edge list; a negative source is counted from the
  end). The mean aggregation of a feature array sums, into each destination node's row, the rows of the sources of its
  edges, and divides the row by the node's number of incoming edges, at least 1. A layer (the companion module) is applied to the
  aggregated features, the features themselves, the two transposed weight matrices and the bias cast to a row; the network is two
  layers, the second on the first one's result.

  The edge indexing, the summation into rows and the division are the host's own operations: both programs apply the same ones, so
  they are carried here as they are printed and never opened.
-/
import proofs.«117430_j45853070852695_2_alg».proof.Proof.Gen.KernelIdeal
import proofs.«117430_j45853070852695_2_alg».proof.Proof.LibSageLayer

noncomputable section

namespace Cert.SageNet

open Idealize.ShloMosaic Cert.KernelIdeal Cert.KernelIdeal.Facts₀

/-- The edges' source nodes. -/
def src (ei : (⟨S2x640000, .i32⟩ : BufTy).Contents (Elt Ideal)) : (⟨S640000, .i32⟩ : BufTy).Contents (Elt Ideal) :=
  shapeCast _ (extractStridedSlice S1x640000 ![0, 0] ei slices_S2x640000_S1x640000_0_0) shapeCasts_S1x640000_S640000

/-- The edges' destination nodes. -/
def dst (ei : (⟨S2x640000, .i32⟩ : BufTy).Contents (Elt Ideal)) : (⟨S640000, .i32⟩ : BufTy).Contents (Elt Ideal) :=
  shapeCast _ (extractStridedSlice S1x640000 ![1, 0] ei slices_S2x640000_S1x640000_1_0) shapeCasts_S1x640000_S640000

/-- The row each edge reads: its source, a negative one moved up by the number of nodes. -/
def srcIdx (ei : (⟨S2x640000, .i32⟩ : BufTy).Contents (Elt Ideal)) : (⟨S640000x1, .i32⟩ : BufTy).Contents (Elt Ideal) :=
  broadcastInDim S640000x1 ![0] bcast_S640000_S640000x1_0
    (select (cmpi .slt (src ei) (broadcastInDim S640000 ![] bcast_S_S640000 (constantI S_ 32 0#32)))
      (addi (src ei) (broadcastInDim S640000 ![] bcast_S_S640000 (constantI S_ 32 100000#32))) (src ei))

/-- The row each edge adds into: its destination. -/
def dstIdx (ei : (⟨S2x640000, .i32⟩ : BufTy).Contents (Elt Ideal)) : (⟨S640000x1, .i32⟩ : BufTy).Contents (Elt Ideal) :=
  broadcastInDim S640000x1 ![0] bcast_S640000_S640000x1_0 (dst ei)

/-- Every node's number of incoming edges, at least 1, as a column. -/
def degCol (ei : (⟨S2x640000, .i32⟩ : BufTy).Contents (Elt Ideal)) : (⟨S100000x1, .f32⟩ : BufTy).Contents (Elt Ideal) :=
  broadcastInDim S100000x1 ![0] bcast_S100000_S100000x1_0
    (maximumf
      (Host.scatterAdd scatter_S100000_S640000x1_S640000_n_0_0_1
        (broadcastInDim S100000 ![] bcast_S_S100000 (constant (F := Ideal) S_ .f32 0x00000000#32)) (dstIdx ei)
        (broadcastInDim S640000 ![] bcast_S_S640000 (constant (F := Ideal) S_ .f32 0x3F800000#32)))
      (broadcastInDim S100000 ![] bcast_S_S100000 (constant (F := Ideal) S_ .f32 0x3F800000#32)))

/-- The mean aggregation of the 128 input features. -/
def mean128 (x : (⟨S100000x128, .f32⟩ : BufTy).Contents (Elt Ideal)) (ei : (⟨S2x640000, .i32⟩ : BufTy).Contents (Elt Ideal)) :
    (⟨S100000x128, .f32⟩ : BufTy).Contents (Elt Ideal) :=
  Host.divf
    (Host.scatterAdd scatter_S100000x128_S640000x1_S640000x128_1_0_0_1
      (broadcastInDim S100000x128 ![] bcast_S_S100000x128 (constant (F := Ideal) S_ .f32 0x00000000#32)) (dstIdx ei)
      (Host.gather gather_S100000x128_S640000x1_S640000x128_1_0_n_n_0_1_1128 x (srcIdx ei)))
    (broadcastInDim S100000x128 ![0, 1] bcast_S100000x1_S100000x128_0_1 (degCol ei))

/-- The mean aggregation of the 256 hidden features. -/
def mean256 (h : (⟨S100000x256, .f32⟩ : BufTy).Contents (Elt Ideal)) (ei : (⟨S2x640000, .i32⟩ : BufTy).Contents (Elt Ideal)) :
    (⟨S100000x256, .f32⟩ : BufTy).Contents (Elt Ideal) :=
  Host.divf
    (Host.scatterAdd scatter_S100000x256_S640000x1_S640000x256_1_0_0_1
      (broadcastInDim S100000x256 ![] bcast_S_S100000x256 (constant (F := Ideal) S_ .f32 0x00000000#32)) (dstIdx ei)
      (Host.gather gather_S100000x256_S640000x1_S640000x256_1_0_n_n_0_1_1256 h (srcIdx ei)))
    (broadcastInDim S100000x256 ![0, 1] bcast_S100000x1_S100000x256_0_1 (degCol ei))

/-- The first layer's result. -/
def hidden (x : (⟨S100000x128, .f32⟩ : BufTy).Contents (Elt Ideal)) (ei : (⟨S2x640000, .i32⟩ : BufTy).Contents (Elt Ideal))
    (Wl1 : (⟨S256x128, .f32⟩ : BufTy).Contents (Elt Ideal)) (b1 : (⟨S256, .f32⟩ : BufTy).Contents (Elt Ideal))
    (Wr1 : (⟨S256x128, .f32⟩ : BufTy).Contents (Elt Ideal)) : (⟨S100000x256, .f32⟩ : BufTy).Contents (Elt Ideal) :=
  Cert.Sage.layer (n := 100000) (K := 128) (H := 256) (mean128 x ei) x
    (transpose S128x256 [1, 0] Wl1 transposes_S256x128_S128x256_1_0) (transpose S128x256 [1, 0] Wr1 transposes_S256x128_S128x256_1_0)
    (shapeCast S1x256 b1 shapeCasts_S256_S1x256)

/-- The network's result. -/
def net (x : (⟨S100000x128, .f32⟩ : BufTy).Contents (Elt Ideal)) (ei : (⟨S2x640000, .i32⟩ : BufTy).Contents (Elt Ideal))
    (Wl1 : (⟨S256x128, .f32⟩ : BufTy).Contents (Elt Ideal)) (b1 : (⟨S256, .f32⟩ : BufTy).Contents (Elt Ideal))
    (Wr1 : (⟨S256x128, .f32⟩ : BufTy).Contents (Elt Ideal))
    (Wl2 : (⟨S256x256, .f32⟩ : BufTy).Contents (Elt Ideal)) (b2 : (⟨S256, .f32⟩ : BufTy).Contents (Elt Ideal))
    (Wr2 : (⟨S256x256, .f32⟩ : BufTy).Contents (Elt Ideal)) : (⟨S100000x256, .f32⟩ : BufTy).Contents (Elt Ideal) :=
  Cert.Sage.layer (n := 100000) (K := 256) (H := 256) (mean256 (hidden x ei Wl1 b1 Wr1) ei) (hidden x ei Wl1 b1 Wr1)
    (transpose S256x256 [1, 0] Wl2 transposes_S256x256_S256x256_1_0) (transpose S256x256 [1, 0] Wr2 transposes_S256x256_S256x256_1_0)
    (shapeCast S1x256 b2 shapeCasts_S256_S1x256)

end Cert.SageNet

end
-- ==== Proof.KernelValue.lean ====
/-
  The idealized kernel's result is the network of its arguments.

  The buffers the first launch finds were written by the host operations before it: the normalised neighbour sums of the input
  features, the transposed weights (a change of float format is the identity on the extended reals) and the bias cast to a row. Its
  output array is therefore the first layer's result. The host operations between the launches read that array and nothing else the
  launch changed: they aggregate it over the same edges (again through a format change that moves nothing), so the second launch
  finds the aggregation of the hidden features, the hidden features, the second layer's weights and bias, and its output is the
  second layer's result.
-/
import proofs.«117430_j45853070852695_2_alg».proof.Proof.KernelRun
import proofs.«117430_j45853070852695_2_alg».proof.Proof.Layer1Value
import proofs.«117430_j45853070852695_2_alg».proof.Proof.Layer2Value
import proofs.«117430_j45853070852695_2_alg».proof.Proof.SageNet

set_option maxRecDepth 16384

noncomputable section

namespace Cert.KernelIdeal.NetValue

open Idealize.ShloMosaic Idealize.ShloMosaic.TcCoe Idealize.ShloMosaic.StableHlo
open Idealize.SL.Sem
open Cert.KernelIdeal Cert.KernelIdeal.Gen

variable (m : (ℓ : Loc nD τ sig) → Buf (Elt Ideal) ℓ) (ρ : Dev nD → PrngReg)

/-! ## What the first launch finds -/

theorem v1_src (c : Dev nD) : W1 m ρ c (Proc.devRef .tc main_v1) = Cert.SageNet.src (m ((c.tc : Thread nD τ).loc main_arg1)) := by
  show StableHlo.after hostOps0 (W0 m ρ c) (Proc.devRef .tc main_v1) = _
  dsimp only [hostOps0]
  after_results
  rfl

theorem v1_dst (c : Dev nD) : W1 m ρ c (Proc.devRef .tc main_v3) = Cert.SageNet.dst (m ((c.tc : Thread nD τ).loc main_arg1)) := by
  show StableHlo.after hostOps0 (W0 m ρ c) (Proc.devRef .tc main_v3) = _
  dsimp only [hostOps0]
  after_results
  rfl

theorem v1_deg (c : Dev nD) : W1 m ρ c (Proc.devRef .tc main_v10) = Cert.SageNet.degCol (m ((c.tc : Thread nD τ).loc main_arg1)) := by
  show StableHlo.after hostOps0 (W0 m ρ c) (Proc.devRef .tc main_v10) = _
  dsimp only [hostOps0]
  after_results
  rfl

set_option maxHeartbeats 4000000 in
theorem v1_agg (c : Dev nD) : V1 m ρ c main_v30
    = Cert.SageNet.mean128 (m ((c.tc : Thread nD τ).loc main_arg0)) (m ((c.tc : Thread nD τ).loc main_arg1)) := by
  show StableHlo.after hostOps0 (W0 m ρ c) (Proc.devRef .tc main_v30) = _
  dsimp only [hostOps0]
  after_results_simp
  rfl

theorem v1_x (c : Dev nD) : V1 m ρ c main_arg0 = m ((c.tc : Thread nD τ).loc main_arg0) := by
  show StableHlo.after hostOps0 (W0 m ρ c) (Proc.devRef .tc main_arg0) = _
  dsimp only [hostOps0]
  after_results

theorem v1_wl (c : Dev nD) : V1 m ρ c main_v12
    = transpose S128x256 [1, 0] (m ((c.tc : Thread nD τ).loc main_arg2)) Facts₀.transposes_S256x128_S128x256_1_0 := by
  show StableHlo.after hostOps0 (W0 m ρ c) (Proc.devRef .tc main_v12) = _
  dsimp only [hostOps0]
  after_results
  rfl

theorem v1_wr (c : Dev nD) : V1 m ρ c main_v14
    = transpose S128x256 [1, 0] (m ((c.tc : Thread nD τ).loc main_arg4)) Facts₀.transposes_S256x128_S128x256_1_0 := by
  show StableHlo.after hostOps0 (W0 m ρ c) (Proc.devRef .tc main_v14) = _
  dsimp only [hostOps0]
  after_results
  rfl

theorem v1_bias (c : Dev nD) : V1 m ρ c main_v31
    = shapeCast S1x256 (m ((c.tc : Thread nD τ).loc main_arg3)) Facts₀.shapeCasts_S256_S1x256 := by
  show StableHlo.after hostOps0 (W0 m ρ c) (Proc.devRef .tc main_v31) = _
  dsimp only [hostOps0]
  after_results
  rfl

theorem v1_wl2 (c : Dev nD) : W1 m ρ c (Proc.devRef .tc main_v16)
    = transpose S256x256 [1, 0] (m ((c.tc : Thread nD τ).loc main_arg5)) Facts₀.transposes_S256x256_S256x256_1_0 := by
  show StableHlo.after hostOps0 (W0 m ρ c) (Proc.devRef .tc main_v16) = _
  dsimp only [hostOps0]
  after_results
  rfl

theorem v1_wr2 (c : Dev nD) : W1 m ρ c (Proc.devRef .tc main_v18)
    = transpose S256x256 [1, 0] (m ((c.tc : Thread nD τ).loc main_arg7)) Facts₀.transposes_S256x256_S256x256_1_0 := by
  show StableHlo.after hostOps0 (W0 m ρ c) (Proc.devRef .tc main_v18) = _
  dsimp only [hostOps0]
  after_results
  rfl

theorem v1_b2 (c : Dev nD) : W1 m ρ c (Proc.devRef .tc main_arg6) = m ((c.tc : Thread nD τ).loc main_arg6) := by
  show StableHlo.after hostOps0 (W0 m ρ c) (Proc.devRef .tc main_arg6) = _
  dsimp only [hostOps0]
  after_results

/-- The first launch's output array is the first layer's result. -/
theorem hidden_eq (c : Dev nD) : W2 m ρ c (Proc.devRef .tc main_v32)
    = Cert.SageNet.hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) := by
  refine ((W2_arr m ρ c 5).trans (Layer1.final (V1 m ρ) c)).trans ?_
  unfold Layer1.G
  rw [v1_agg, v1_x, v1_wl, v1_wr, v1_bias]
  rfl

/-! ## What the second launch finds -/

theorem w2_src (c : Dev nD) : W2 m ρ c (Proc.devRef .tc main_v1) = Cert.SageNet.src (m ((c.tc : Thread nD τ).loc main_arg1)) :=
  (W2_of_ne m ρ c main_v1 (by decide)).trans (v1_src m ρ c)
theorem w2_dst (c : Dev nD) : W2 m ρ c (Proc.devRef .tc main_v3) = Cert.SageNet.dst (m ((c.tc : Thread nD τ).loc main_arg1)) :=
  (W2_of_ne m ρ c main_v3 (by decide)).trans (v1_dst m ρ c)
theorem w2_deg (c : Dev nD) : W2 m ρ c (Proc.devRef .tc main_v10) = Cert.SageNet.degCol (m ((c.tc : Thread nD τ).loc main_arg1)) :=
  (W2_of_ne m ρ c main_v10 (by decide)).trans (v1_deg m ρ c)
theorem w2_wl2 (c : Dev nD) : W2 m ρ c (Proc.devRef .tc main_v16)
    = transpose S256x256 [1, 0] (m ((c.tc : Thread nD τ).loc main_arg5)) Facts₀.transposes_S256x256_S256x256_1_0 :=
  (W2_of_ne m ρ c main_v16 (by decide)).trans (v1_wl2 m ρ c)
theorem w2_wr2 (c : Dev nD) : W2 m ρ c (Proc.devRef .tc main_v18)
    = transpose S256x256 [1, 0] (m ((c.tc : Thread nD τ).loc main_arg7)) Facts₀.transposes_S256x256_S256x256_1_0 :=
  (W2_of_ne m ρ c main_v18 (by decide)).trans (v1_wr2 m ρ c)
theorem w2_b2 (c : Dev nD) : W2 m ρ c (Proc.devRef .tc main_arg6) = m ((c.tc : Thread nD τ).loc main_arg6) :=
  (W2_of_ne m ρ c main_arg6 (by decide)).trans (v1_b2 m ρ c)

set_option maxHeartbeats 4000000 in
/-- The aggregated hidden features: the same aggregation, read through a format change that moves nothing. -/
theorem v3_agg (c : Dev nD) : V3 m ρ c main_v45
    = Cert.SageNet.mean256 (Cert.SageNet.hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))) (m ((c.tc : Thread nD τ).loc main_arg1)) := by
  show StableHlo.after hostOps1 (W2 m ρ c) (Proc.devRef .tc main_v45) = _
  dsimp only [hostOps1]
  after_results_simp
  rw [w2_src, w2_dst, w2_deg, hidden_eq]
  rfl

theorem v3_hidden (c : Dev nD) : V3 m ρ c main_v32 = (Cert.SageNet.hidden (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))) := by
  show StableHlo.after hostOps1 (W2 m ρ c) (Proc.devRef .tc main_v32) = _
  dsimp only [hostOps1]
  after_results
  exact hidden_eq m ρ c

theorem v3_wl2 (c : Dev nD) : V3 m ρ c main_v16
    = transpose S256x256 [1, 0] (m ((c.tc : Thread nD τ).loc main_arg5)) Facts₀.transposes_S256x256_S256x256_1_0 := by
  show StableHlo.after hostOps1 (W2 m ρ c) (Proc.devRef .tc main_v16) = _
  dsimp only [hostOps1]
  after_results
  exact w2_wl2 m ρ c

theorem v3_wr2 (c : Dev nD) : V3 m ρ c main_v18
    = transpose S256x256 [1, 0] (m ((c.tc : Thread nD τ).loc main_arg7)) Facts₀.transposes_S256x256_S256x256_1_0 := by
  show StableHlo.after hostOps1 (W2 m ρ c) (Proc.devRef .tc main_v18) = _
  dsimp only [hostOps1]
  after_results
  exact w2_wr2 m ρ c

theorem v3_bias (c : Dev nD) : V3 m ρ c main_v46
    = shapeCast S1x256 (m ((c.tc : Thread nD τ).loc main_arg6)) Facts₀.shapeCasts_S256_S1x256 := by
  show StableHlo.after hostOps1 (W2 m ρ c) (Proc.devRef .tc main_v46) = _
  dsimp only [hostOps1]
  after_results
  rw [w2_b2]
  rfl

/-! ## The result -/

/-- The second launch's output array after all its write-backs is the network of the arguments. -/
theorem result_eq (c : Dev nD) : (dat1 (V3 m ρ) c).arrAt 5 cfg1.N
    = Cert.SageNet.net (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) := by
  refine (Layer2.final (V3 m ρ) c).trans ?_
  unfold Layer2.G
  rw [v3_agg, v3_hidden, v3_wl2, v3_wr2, v3_bias]
  rfl

/-- Every weakly fair execution of the idealized kernel terminates, nothing faulting, with the result at the network of the
    arguments and the arguments as launched. -/
theorem run : θ_run defs (onTc (τ := τ) (main (F := Ideal))) ⟨m, fun _ => 0, ρ⟩ (fun r => ∀ c : Dev nD,
      r.2.mem ((c.tc : Thread nD τ).loc main_v47)
        = Cert.SageNet.net (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (Cert.KernelIdeal.RunOut.run_out m ρ)

end Cert.KernelIdeal.NetValue

end
-- ==== Proof.RefValue.lean ====
/-
  The idealized reference's result is the network of its arguments.

  The reference computes each layer on whole arrays: the product of the aggregated features with the transposed weight, plus the
  bias broadcast along the rows, plus the product of the features with the other transposed weight, then the maximum with zero.
  That is the layer (the bias added between the two products instead of after them: addition of extended reals is commutative and
  associative). Its aggregation is the same chain of host operations as the kernel's, its degree count spelt twice.
-/
import proofs.«117430_j45853070852695_2_alg».proof.Proof.Gen.ReferenceIdeal.Run
import proofs.«117430_j45853070852695_2_alg».proof.Proof.SageNet

set_option maxRecDepth 16384

noncomputable section

namespace Cert.ReferenceIdeal.NetValue

open Idealize.ShloMosaic Idealize.ShloMosaic.TcCoe
open Idealize.SL.Sem
open Cert.ReferenceIdeal Cert.ReferenceIdeal.Facts₀

/-- The reference's first layer, as it spells it, is the layer. -/
theorem layer1_ref (A X : FVec Ideal S100000x128 .f32) (W W' : FVec Ideal S128x256 .f32) (b : FVec Ideal S256 .f32) :
    maximumf (addf (addf (Host.dotGeneral dot_S100000x128_S128x256_S100000x256_1_0_0_1_n_n none A W)
        (broadcastInDim S100000x256 ![0, 1] bcast_S1x256_S100000x256_0_1 (broadcastInDim S1x256 ![1] bcast_S256_S1x256_1 b)))
        (Host.dotGeneral dot_S100000x128_S128x256_S100000x256_1_0_0_1_n_n none X W'))
      (broadcastInDim S100000x256 ![] bcast_S_S100000x256 (constant (F := Ideal) S_ .f32 0x00000000#32))
    = Cert.Sage.layer (n := 100000) (K := 128) (H := 256) A X W W'
        (shapeCast Cert.KernelIdeal.S1x256 b Cert.KernelIdeal.Facts₀.shapeCasts_S256_S1x256) :=
  Cert.Sage.bias_between_products (n := 100000) (K := 128) (H := 256) dot_S100000x128_S128x256_S100000x256_1_0_0_1_n_n rfl A X W W' b
    bcast_S256_S1x256_1 bcast_S1x256_S100000x256_0_1 bcast_S_S100000x256 Cert.KernelIdeal.Facts₀.shapeCasts_S256_S1x256

/-- The reference's second layer, as it spells it, is the layer. -/
theorem layer2_ref (A X : FVec Ideal S100000x256 .f32) (W W' : FVec Ideal S256x256 .f32) (b : FVec Ideal S256 .f32) :
    maximumf (addf (addf (Host.dotGeneral dot_S100000x256_S256x256_S100000x256_1_0_0_1_n_n none A W)
        (broadcastInDim S100000x256 ![0, 1] bcast_S1x256_S100000x256_0_1 (broadcastInDim S1x256 ![1] bcast_S256_S1x256_1 b)))
        (Host.dotGeneral dot_S100000x256_S256x256_S100000x256_1_0_0_1_n_n none X W'))
      (broadcastInDim S100000x256 ![] bcast_S_S100000x256 (constant (F := Ideal) S_ .f32 0x00000000#32))
    = Cert.Sage.layer (n := 100000) (K := 256) (H := 256) A X W W'
        (shapeCast Cert.KernelIdeal.S1x256 b Cert.KernelIdeal.Facts₀.shapeCasts_S256_S1x256) :=
  Cert.Sage.bias_between_products (n := 100000) (K := 256) (H := 256) dot_S100000x256_S256x256_S100000x256_1_0_0_1_n_n rfl A X W W' b
    bcast_S256_S1x256_1 bcast_S1x256_S100000x256_0_1 bcast_S_S100000x256 Cert.KernelIdeal.Facts₀.shapeCasts_S256_S1x256

/-- The reference run's result term is the network of the arguments. -/
theorem result_eq (m : (ℓ : Loc nD τ sig) → Buf (Elt Ideal) ℓ) (c : Dev nD) :
    Cert.ReferenceIdeal.Value.res_main_v59 (F := Ideal) m c
      = Cert.SageNet.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v59
  rw [layer2_ref, layer1_ref]
  rfl

end Cert.ReferenceIdeal.NetValue

end
-- ==== Proof.lean ====
/-
  The certificate of a two-layer graph network with mean aggregation: a kernel program that runs each layer's dense part as a
  tiled launch (25 blocks of 4000 nodes, the weights resident) around the host's gather and scatter-add, against a reference that
  computes everything on whole arrays.

  Over the extended reals both compute, for every node `p` and output feature `q`,
  `max (∑ k, agg[p,k]·Wl[q,k] + ∑ k, h[p,k]·Wr[q,k] + b[q]) 0` twice — `agg` the sum of the features of `p`'s incoming neighbours
  divided by their number (at least 1), `h` first the input features and then the first layer's result. The kernel stores the hidden
  features in a narrower float format and rounds the matrix products' operands to it; on the extended reals a change of format is
  the identity. It adds the bias after the second product where the reference adds it between the two: addition is commutative
  and associative with no finiteness asked, so the precondition is never opened. It computes the degree once where the reference
  computes it per layer: the same term. The launches' blocks tile the rows, and an output entry reads one row of each row operand.

  The frames of the two kernel programs are the generated ones; the reference's frame is its generated run with the result
  dropped; the idealization rewrote nothing.
-/
import proofs.«117430_j45853070852695_2_alg».proof.Defs
import proofs.«117430_j45853070852695_2_alg».proof.Proof.Gen.Kernel
import proofs.«117430_j45853070852695_2_alg».proof.Proof.Gen.Kernel.Frame
import proofs.«117430_j45853070852695_2_alg».proof.Proof.Gen.KernelIdeal
import proofs.«117430_j45853070852695_2_alg».proof.Proof.Gen.KernelIdeal.Frame
import proofs.«117430_j45853070852695_2_alg».proof.Proof.Gen.ReferenceIdeal
import proofs.«117430_j45853070852695_2_alg».proof.Proof.Gen.Pre_finite_inputs
import proofs.«117430_j45853070852695_2_alg».proof.Proof.Gen.ReferenceIdeal.Run
import proofs.«117430_j45853070852695_2_alg».proof.Proof.KernelValue
import proofs.«117430_j45853070852695_2_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the network of their arguments, and the arguments agree. -/
theorem algebraic : Cert.algebraic_KernelIdeal_ReferenceIdeal := by
  intro m ρ m' ρ' _ hagree
  refine ⟨_, Cert.KernelIdeal.NetValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.NetValue.result_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
